-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S2x3x128 : Shape := ⟨3, ![2, 3, 128]⟩
abbrev S1x512x1024 : Shape := ⟨3, ![1, 512, 1024]⟩
abbrev S1x3x128 : Shape := ⟨3, ![1, 3, 128]⟩
abbrev S3x128 : Shape := ⟨2, ![3, 128]⟩
abbrev S512x1024 : Shape := ⟨2, ![512, 1024]⟩
abbrev S1024x1 : Shape := ⟨2, ![1024, 1]⟩
abbrev S1x128 : Shape := ⟨2, ![1, 128]⟩
abbrev S512x1 : Shape := ⟨2, ![512, 1]⟩
abbrev S512 : Shape := ⟨1, ![512]⟩
abbrev S1x512 : Shape := ⟨2, ![1, 512]⟩
abbrev S1 : Shape := ⟨1, ![1]⟩
abbrev S1x1 : Shape := ⟨2, ![1, 1]⟩
abbrev S_ : Shape := ⟨0, ![]⟩
abbrev S1x20 : Shape := ⟨2, ![1, 20]⟩
abbrev S20 : Shape := ⟨1, ![20]⟩

abbrev nBuf : Space → Nat
  | .hbm => 34
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S2x3x128, .f32⟩
  | .hbm, ⟨3, _⟩ => ⟨S_, .f32⟩
  | .hbm, ⟨4, _⟩ => ⟨S3x128, .f32⟩
  | .hbm, ⟨5, _⟩ => ⟨S1x20, .f32⟩
  | .hbm, ⟨6, _⟩ => ⟨S20, .f32⟩
  | .hbm, ⟨7, _⟩ => ⟨S1x20, .f32⟩
  | .hbm, ⟨8, _⟩ => ⟨S20, .f32⟩
  | .hbm, ⟨9, _⟩ => ⟨S1x20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .i1⟩
  | .hbm, ⟨14, _⟩ => ⟨S_, .f32⟩
  | .hbm, ⟨15, _⟩ => ⟨S_, .f32⟩
  | .hbm, ⟨16, _⟩ => ⟨S20, .f32⟩
  | .hbm, ⟨17, _⟩ => ⟨S20, .f32⟩
  | .hbm, ⟨18, _⟩ => ⟨S20, .f32⟩
  | .hbm, ⟨19, _⟩ => ⟨S20, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S20, .f32⟩
  | .hbm, ⟨28, _⟩ => ⟨S20, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x3x128, .f32⟩
  | .local _ .vmem, ⟨5, _⟩ => ⟨S1x3x128, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

@[reducible] def k0_t1_loop : Scf.Loop 32 :=
  let c0_i32_14 : BitVec 32 := 0#32
  let c20_i32 : BitVec 32 := 20#32
  let v31 : BitVec 32 := Scalar.addi c0_i32_14 c20_i32
  let c1_i32 : BitVec 32 := 1#32
  ⟨c0_i32_14, v31, c1_i32⟩
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  natLt_1_32 : 1 < 32
  bitsLt_bf16_f32 : FTy.bits .bf16 < FTy.bits .f32
  iota_S1x128_d1_w32 : S1x128.Iotas .tc 32 [1]
  reduces_S512x1_S512 : S512x1.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  concatenates_S1x128_S1x128_S1x128_S3x128_d0 : Shape.Concatenates [S1x128, S1x128, S1x128] S3x128 0
  reducesTo_S2x3x128_S3x128_d0 : S2x3x128.ReducesTo [0] S3x128
  h_S_ : 0 < S_.numel
  slices_S3x128_S1x20_0_0 : S3x128.Slices ![0, 0] S1x20
  shapeCasts_S1x20_S20 : S1x20.ShapeCasts S20
  slices_S3x128_S1x20_1_0 : S3x128.Slices ![1, 0] S1x20
  slices_S3x128_S1x20_2_0 : S3x128.Slices ![2, 0] S1x20
  bcast_S_S20 : S_.BroadcastsInDim S20 (![] : Fin 0 → Fin S20.rank)
  reducesTo_S20_S_d0 : S20.ReducesTo [0] S_
  dot_S512x1024_S1024x1_S512x1_1_0_0_1_n_n_wf : DotDims.WF S512x1024 S1024x1 S512x1 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16777216 : Shape := ⟨1, ![16777216]⟩
abbrev S_ : Shape := ⟨0, ![]⟩
abbrev S20 : Shape := ⟨1, ![20]⟩
abbrev S16777216x1 : Shape := ⟨2, ![16777216, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .i1⟩
  | .hbm, ⟨23, _⟩ => ⟨S16777216, .i1⟩
  | .hbm, ⟨24, _⟩ => ⟨S16777216, .f32⟩
  | .hbm, ⟨25, _⟩ => ⟨S_, .f32⟩
  | .hbm, ⟨26, _⟩ => ⟨S20, .f32⟩
  | .hbm, ⟨27, _⟩ => ⟨S16777216x1, .i32⟩
  | .hbm, ⟨28, _⟩ => ⟨S20, .f32⟩
  | .hbm, ⟨29, _⟩ => ⟨S16777216, .f32⟩
  | .hbm, ⟨30, _⟩ => ⟨S_, .f32⟩
  | .hbm, ⟨31, _⟩ => ⟨S20, .f32⟩
  | .hbm, ⟨32, _⟩ => ⟨S16777216x1, .i32⟩
  | .hbm, ⟨33, _⟩ => ⟨S20, .f32⟩
  | .hbm, ⟨34, _⟩ => ⟨S16777216, .f32⟩
  | .hbm, ⟨35, _⟩ => ⟨S_, .f32⟩
  | .hbm, ⟨36, _⟩ => ⟨S20, .f32⟩
  | .hbm, ⟨37, _⟩ => ⟨S16777216x1, .i32⟩
  | .hbm, ⟨38, _⟩ => ⟨S20, .f32⟩
  | .hbm, ⟨39, _⟩ => ⟨S_, .f32⟩
  | .hbm, ⟨40, _⟩ => ⟨S20, .f32⟩
  | .hbm, ⟨41, _⟩ => ⟨S20, .i1⟩
  | .hbm, ⟨42, _⟩ => ⟨S_, .f32⟩
  | .hbm, ⟨43, _⟩ => ⟨S_, .f32⟩
  | .hbm, ⟨44, _⟩ => ⟨S20, .f32⟩
  | .hbm, ⟨45, _⟩ => ⟨S20, .f32⟩
  | .hbm, ⟨46, _⟩ => ⟨S20, .f32⟩
  | .hbm, ⟨47, _⟩ => ⟨S20, .f32⟩
  | .hbm, ⟨48, _⟩ => ⟨S20, .f32⟩
  | .hbm, ⟨49, _⟩ => ⟨S20, .f32⟩
  | .hbm, ⟨50, _⟩ => ⟨S20, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S20, .f32⟩
  | .hbm, ⟨56, _⟩ => ⟨S20, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  shapeCasts_S16x1024x1024_S16777216 : S16x1024x1024.ShapeCasts S16777216
  bcast_S_S16777216 : S_.BroadcastsInDim S16777216 (![] : Fin 0 → Fin S16777216.rank)
  bcast_S_S20 : S_.BroadcastsInDim S20 (![] : Fin 0 → Fin S20.rank)
  bcast_S16777216_S16777216x1_0 : S16777216.BroadcastsInDim S16777216x1 (![0] : Fin 1 → Fin S16777216x1.rank)
  reducesTo_S20_S_d0 : S20.ReducesTo [0] S_
  h_S_ : 0 < S_.numel
  scatter_S20_S16777216x1_S16777216_n_0_0_1_wf : ScatterDims.WF S20 S16777216x1 S16777216 [] [0] [0] 1

variable [Facts₀]

def scatter_S20_S16777216x1_S16777216_n_0_0_1 : ScatterDims S20 S16777216x1 S16777216 where
  updateWindowDims := []
  insertedWindowDims := [0]
  scatterDimsToOperandDims := [0]
  indexVectorDim := 1
  wf := scatter_S20_S16777216x1_S16777216_n_0_0_1_wf

class Facts : Prop extends Facts₀ where

variable [Facts]
-- ==== Proof.KDelta.lean ====
/-
  What ONE grid point adds to its group's 3 × 128 block of running sums, as one pure term of the point's two input
  blocks: the kernel's twenty-trip loop folds, bin by bin, "one-hot lane of the bin × (the block's sum of the bin's
  masked entries)" into three 1 × 128 rows starting from zero; the three rows are then stacked.
-/
import proofs.«148604_j84404697301125_2_alg».proof.Proof.Gen.KernelIdeal.Skeleton

noncomputable section

namespace Cert.KernelIdeal.Hist

open Idealize.ShloMosaic Cert.KernelIdeal Cert.KernelIdeal.Gen

variable {F : FTy → Type} [FloatOps F]

/-- The sum of all entries of a 512 × 1024 block as the kernel forms it: the product with a column of ones (the row
    sums, as a 512 × 1 column), summed along its unit axis, laid out as a 1 × 512 row and summed along it, and the one
    entry of the result taken. -/
def blockSum (X : FVec F S512x1024 .bf16) : F .f32 :=
  have c0 : FVec F S512x1 .f32 := constant S512x1 .f32 0x00000000#32
  have v47 : FVec F S512x1 .f32 := matmul dot_S512x1024_S1024x1_S512x1_1_0_0_1_n_n none X (k0_pay4 (F := F)) c0
  have v48 : FVec F S512 .f32 := multiReduction .add [1] S512 v47 0x00000000#32 reduces_S512x1_S512 (.inl rfl) rfl
  have v49 : FVec F S1x512 .f32 := shapeCast S1x512 v48 shapeCasts_S512_S1x512
  have v50 : FVec F S1 .f32 := multiReduction .add [1] S1 v49 0x00000000#32 reduces_S1x512_S1 (.inl rfl) rfl
  have v51 : FVec F S1x1 .f32 := shapeCast S1x1 v50 shapeCasts_S1_S1x1
  extractAt ![0, 0] v51 inpos_S1x1_p0_0

/-- One trip adds to the count row: the bin's one-hot lane times the block's sum of the bin's mask. -/
theorem pay10_eq (x0 : Vec F S1x512x1024 .f32) (k : Fin k0_t1_loop.trips) (a : FVec F S1x128 .f32) :
    k0_pay10 x0 k a = addf a (mulf (k0_pay9 (F := F) k) (broadcast S1x128 (blockSum (k0_pay8 x0 k)))) := rfl

/-- to the confidence row: the same lane times the block's sum of mask × confidence; -/
theorem pay11_eq (x0 : Vec F S1x512x1024 .f32) (k : Fin k0_t1_loop.trips) (a : FVec F S1x128 .f32) :
    k0_pay11 x0 k a = addf a (mulf (k0_pay9 (F := F) k) (broadcast S1x128
      (blockSum (mulf (k0_pay8 x0 k) (truncf .bf16 (k0_pay3 x0) bitsLt_bf16_f32))))) := rfl

/-- to the accuracy row: the same lane times the block's sum of mask × accuracy. -/
theorem pay12_eq (x0 x1 : Vec F S1x512x1024 .f32) (k : Fin k0_t1_loop.trips) (a : FVec F S1x128 .f32) :
    k0_pay12 x0 x1 k a = addf a (mulf (k0_pay9 (F := F) k) (broadcast S1x128
      (blockSum (mulf (k0_pay8 x0 k) (truncf .bf16 (shapeCast S512x1024 x1 shapeCasts_S1x512x1024_S512x1024) bitsLt_bf16_f32))))) := rfl

/-- The three rows after the twenty trips: the loop's yield folded over the trips from the three zero rows. -/
def rows (x0 x1 : Vec F S1x512x1024 .f32) : FVec F S1x128 .f32 × FVec F S1x128 .f32 × FVec F S1x128 .f32 :=
  Scf.fold (n := k0_t1_loop.trips)
    (fun k acc => (k0_pay10 x0 k acc.1, k0_pay11 x0 k acc.2.1, k0_pay12 x0 x1 k acc.2.2))
    (k0_pay5, k0_pay6, k0_pay7)

/-- The point's contribution: the three rows stacked into a 3 × 128 block. -/
def delta (x0 x1 : Vec F S1x512x1024 .f32) : FVec F S3x128 .f32 :=
  k0_pay13 (rows x0 x1).1 (rows x0 x1).2.1 (rows x0 x1).2.2

end Cert.KernelIdeal.Hist

end
-- ==== Proof.KPieces.lean ====
/-
  What one run of the kernel body leaves in the output's staging block, as a value.

  At a point that is not the first of its group the body reads the running block `xo`, adds the point's contribution
  `delta x0 x1` and stores the sum: the block ends at `k0_pay1 (delta x0 x1) xo` (the sum, through two casts that only
  relabel 1 × 3 × 128 as 3 × 128 and back). At the first point of a group the body first stores the zero block and then
  does the same on what it has just stored: the block ends at `k0_pay1 (delta x0 x1) k0_pay2`, `k0_pay2` the zero block.
-/
import proofs.«148604_j84404697301125_2_alg».proof.Proof.Gen.KernelIdeal.Frame
import proofs.«148604_j84404697301125_2_alg».proof.Proof.KDelta
import Idealize.ShloMosaic.Lib.Pipeline.Value
import Idealize.ShloMosaic.Lib.Tactic

noncomputable section

namespace Cert.KernelIdeal.Hist

open Idealize.ShloMosaic Idealize.ShloMosaic.TcCoe Idealize.SL.Sem
open Cert.KernelIdeal Cert.KernelIdeal.Gen

variable {F : FTy → Type} [FloatOps F]

theorem zero3 : (![0, 0, 0] : Fin 3 → Nat) = fun _ => 0 := funext fun a => by fin_cases a <;> rfl

/-- A point that continues its group: the running block plus the point's contribution. -/
theorem out_B (c : Dev nD) (i : grid0.Coords) (a3 : Memref sig .tc .vmem S1x512x1024 .f32) (h3 : a3.IsWhole)
    (a4 : Memref sig .tc .vmem S1x512x1024 .f32) (h4 : a4.IsWhole) (a5 : Memref sig .tc .vmem S1x3x128 .f32) (h5 : a5.IsWhole)
    (hc : ¬cond0_0 i) (x0 x1 : Vec F S1x512x1024 .f32) (xo : Vec F S1x3x128 .f32) :
    out0_B_2 c i a3 h3 a4 h4 a5 h5 hc x0 x1 xo = k0_pay1 (delta x0 x1) xo := by
  unfold out0_B_2
  rw [View.read_writes_eq_canon _ _ _ (cover0_B_2 c i a3 h3 a4 h4 a5 h5 hc x0 x1 xo)]
  unfold kernelRun0_B
  dsimp only
  sl_unfold_words
  rw [View.canon_unit_zero zero3]
  simp only [View.readAt_eq_ld, h3.read_unread, h4.read_unread, h5.read_unread,
    View.ld_unit_zero (S := S1x3x128) zero3, View.ld_unit_zero (S := S1x512x1024) zero3]
  rfl

/-- The first point of a group: the zero block plus the point's contribution. -/
theorem out_A (c : Dev nD) (i : grid0.Coords) (a3 : Memref sig .tc .vmem S1x512x1024 .f32) (h3 : a3.IsWhole)
    (a4 : Memref sig .tc .vmem S1x512x1024 .f32) (h4 : a4.IsWhole) (a5 : Memref sig .tc .vmem S1x3x128 .f32) (h5 : a5.IsWhole)
    (hc : cond0_0 i) (x0 x1 : Vec F S1x512x1024 .f32) :
    out0_A_2 c i a3 h3 a4 h4 a5 h5 hc x0 x1 = k0_pay1 (delta x0 x1) (k0_pay2 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x3x128) zero3, View.readCov_unit_zero (S := S1x3x128) _ zero3]
  simp only [View.readAt_eq_ld, h3.read_unread, h4.read_unread, h5.read_unread,
    View.ld_unit_zero (S := S1x3x128) zero3, View.ld_unit_zero (S := S1x512x1024) zero3]
  rfl

end Cert.KernelIdeal.Hist

end
-- ==== Proof.KAccum.lean ====
/-
  The running block after each grid point, over the extended reals.

  The grid's 32 points run in order; points 16g … 16g + 15 form group g, and the group's 3 × 128 output block is
  zeroed at the group's first point and added to at every point. Read at row r and lane l, the block after point n is
  therefore the sum of the contributions of the points of n's group up to n — by induction on n, the two cases of
  the step being the two cases of the kernel body.
-/
import proofs.«148604_j84404697301125_2_alg».proof.Proof.KPieces
import Idealize.ShloMosaic.PureOps.Ideal.Laws
import Idealize.ShloMosaic.Lib.ValueIdx
import Idealize.ShloMosaic.Lib.ValueLayout

noncomputable section

namespace Cert.KernelIdeal.Hist

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- What point `t` adds: the contribution of its two input blocks. -/
def contribAt (c : Dev nD) (t : Fin cfg0.N) : FVec Ideal S3x128 .f32 :=
  delta (F := Ideal) (iblk m c 0 t) (iblk m c 1 t)

/-- The store's value at (0, r, l): what was read there plus the contribution at (r, l). -/
theorem pay1_apply (v33 : FVec Ideal S3x128 .f32) (v34 : Vec Ideal S1x3x128 .f32) (r : Fin 3) (l : Fin 128) :
    k0_pay1 (F := Ideal) v33 v34 (ix3 (0 : Fin 1) r l) = v34 (ix3 (0 : Fin 1) r l) + v33 (ix2 r l) := by
  unfold k0_pay1
  rw [shapeCast_ab_1ab_apply]
  show shapeCast S3x128 v34 shapeCasts_S1x3x128_S3x128 (ix2 r l) + v33 (ix2 r l) = _
  rw [shapeCast_1ab_ab_apply]

/-- The zero block is zero everywhere. -/
theorem pay2_apply (r : Fin 3) (l : Fin 128) : k0_pay2 (F := Ideal) (ix3 (0 : Fin 1) r l) = 0 := by
  unfold k0_pay2
  rw [shapeCast_ab_1ab_apply]
  exact Ideal.ofBits_zero_f32

/-- The block after point n, at (0, r, l): the contributions of the points of n's group up to n, summed. -/
theorem outsAt_apply (c : Dev nD) (r : Fin 3) (l : Fin 128) : ∀ (n : ℕ) (h : n < cfg0.N),
    outsAt0 m c n h (ix3 (0 : Fin 1) r l)
      = ∑ t : Fin cfg0.N, if t.val / 16 = n / 16 ∧ t.val ≤ n then contribAt m c t (ix2 r l) else 0
  | 0, h => by
    rw [(outsAt0_A m c ⟨0, h⟩ rfl).trans (out_A ..), pay1_apply, pay2_apply, zero_add]
    rw [Finset.sum_eq_single (⟨0, h⟩ : Fin cfg0.N)]
    · rw [if_pos ⟨rfl, le_refl _⟩]; rfl
    · intro t _ ht
      rw [if_neg]
      rintro ⟨_, h2⟩
      exact ht (Fin.ext (Nat.le_zero.mp h2))
    · intro hh; exact absurd (Finset.mem_univ _) hh
  | n + 1, h => by
    have hN : cfg0.N = 32 := N_0
    by_cases h0 : (n + 1) % 16 = 0
    · rw [(outsAt0_A m c ⟨n + 1, h⟩ h0).trans (out_A ..), pay1_apply, pay2_apply, zero_add]
      rw [Finset.sum_eq_single (⟨n + 1, h⟩ : Fin cfg0.N)]
      · rw [if_pos ⟨rfl, le_refl _⟩]; rfl
      · intro t _ ht
        rw [if_neg]
        rintro ⟨h1, h2⟩
        apply ht; apply Fin.ext
        show t.val = n + 1
        omega
      · intro hh; exact absurd (Finset.mem_univ _) hh
    · have hB : ¬(⟨n + 1, h⟩ : Fin cfg0.N).val % 16 = 0 := h0
      rw [(outsAt0_B m c ⟨n + 1, h⟩ hB).trans (out_B ..), pay1_apply]
      show outsAt0 m c n _ (ix3 (0 : Fin 1) r l) + _ = _
      rw [outsAt_apply c r l n (Nat.lt_of_succ_lt h)]
      have hsplit : ∀ t : Fin cfg0.N,
          (if t.val / 16 = (n + 1) / 16 ∧ t.val ≤ n + 1 then contribAt m c t (ix2 r l) else 0)
            = (if t.val / 16 = n / 16 ∧ t.val ≤ n then contribAt m c t (ix2 r l) else 0)
              + (if t = (⟨n + 1, h⟩ : Fin cfg0.N) then contribAt m c t (ix2 r l) else 0) := by
        intro t
        by_cases ht : t = (⟨n + 1, h⟩ : Fin cfg0.N)
        · subst ht
          rw [if_pos ⟨rfl, le_refl _⟩, if_neg (by rintro ⟨_, h2⟩; simp at h2), if_pos rfl, zero_add]
        · have hv : t.val ≠ n + 1 := fun e => ht (Fin.ext e)
          rw [if_neg ht, add_zero]
          by_cases hc : t.val / 16 = n / 16 ∧ t.val ≤ n
          · rw [if_pos hc, if_pos ⟨by omega, by omega⟩]
          · rw [if_neg hc, if_neg]
            rintro ⟨h1, h2⟩
            exact hc ⟨by omega, by omega⟩
      rw [Finset.sum_congr rfl (fun t _ => hsplit t), Finset.sum_add_distrib, Finset.sum_ite_eq' Finset.univ (⟨n + 1, h⟩ : Fin cfg0.N)]
      simp only [Finset.mem_univ, if_true]
      rfl

end Cert.KernelIdeal.Hist

end
-- ==== Proof.KFinal.lean ====
/-
  The kernel's output array after the run, over the extended reals.

  Group g's block is written back once, after the group's last point 16g + 15, to rows g of the 2 × 3 × 128 array; by
  then it holds the sum of the contributions of all sixteen points of the group. The two blocks tile the array, so
  the array ends at: entry (g, r, l) = the sum over the points t with t / 16 = g of point t's contribution at (r, l).
-/
import proofs.«148604_j84404697301125_2_alg».proof.Proof.KAccum
import Idealize.ShloMosaic.Lib.Pipeline.Value

noncomputable section

namespace Cert.KernelIdeal.Hist

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The total of group `g` at an entry of the 3 × 128 block. -/
def groupTotal (c : Dev nD) (g : ℕ) (y : S3x128.Idx) : EReal :=
  ∑ t : Fin cfg0.N, if t.val / 16 = g then contribAt m c t y else 0

/-- The last two coordinates of an index of the 2 × 3 × 128 array, as an index of a 3 × 128 block. -/
abbrev inBlock (i : S2x3x128.Idx) : S3x128.Idx := fun a => match a with
  | ⟨0, _⟩ => ⟨(i 1).val, (i 1).isLt⟩
  | ⟨1, _⟩ => ⟨(i 2).val, (i 2).isLt⟩

/-- The array the run leaves: at (g, r, l) group g's total at (r, l). -/
def finalArr (c : Dev nD) : Buf (Elt Ideal) ((c : Thread nD τ).loc main_v0) :=
  fun i => groupTotal m c (i 0).val (inBlock i)

/-- The output window's block index at point t: (t / 16, 0, 0) — decided over the grid. -/
theorem out_index : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- What a group's last point writes back is that group's block of `finalArr`. -/
theorem flushed_eq (c : Dev nD) (t : Fin cfg0.N) (hf : (cfg0.win 2).flush t = true) :
    (dats m 0 c).flushed 2 t = ((cfg0.win 2).blk t).view.read (Elt Ideal) (finalArr m c) := by
  have hN : cfg0.N = 32 := N_0
  have h15 : t.val % 16 = 15 := (flush0_2 t).mp hf
  obtain ⟨e0, e1, e2⟩ := out_index t
  show (cfg0.win 2).cut (grid0.coords t) ((dats m 0 c).after 2 t) = _
  rw [after0_2]
  funext j
  obtain ⟨j0, j1, j2, rfl⟩ : ∃ (j0 : Fin 1) (j1 : Fin 3) (j2 : Fin 128), j = ix3 j0 j1 j2 := ⟨j 0, j 1, j 2, eq_ix3 j⟩
  obtain rfl : j0 = 0 := Subsingleton.elim _ _
  show outsAt0 m c t.val t.isLt (ix3 (0 : Fin 1) j1 j2) = finalArr m c (((cfg0.win 2).blk t).view.emb (ix3 (0 : Fin 1) j1 j2))
  rw [outsAt_apply]
  unfold finalArr groupTotal
  have hg : ((((cfg0.win 2).blk t).view.emb (ix3 (0 : Fin 1) j1 j2)) 0).val = t.val / 16 := by
    show win0_2.index t (0 : Fin 3) * 1 + 1 * 0 = _
    omega
  have hy : inBlock (((cfg0.win 2).blk t).view.emb (ix3 (0 : Fin 1) j1 j2)) = ix2 j1 j2 := by
    funext a
    apply Fin.ext
    match a with
    | ⟨0, _⟩ => show win0_2.index t (1 : Fin 3) * 3 + 1 * j1.val = j1.val; omega
    | ⟨1, _⟩ => show win0_2.index t (2 : Fin 3) * 128 + 1 * j2.val = j2.val; omega
  rw [hg, hy]
  refine Finset.sum_congr rfl fun t' _ => ?_
  have ht' : t'.val < 32 := lt_of_lt_of_eq t'.isLt hN
  by_cases hc : t'.val / 16 = t.val / 16
  · rw [if_pos hc, if_pos ⟨hc, by omega⟩]
  · rw [if_neg hc, if_neg (fun h => hc h.1)]

/-- The two written blocks tile the array. -/
theorem final_v0 (c : Dev nD) : (dats m 0 c).arrAt 2 cfg0.N = finalArr m c :=
  (dats m 0 c).arrAt_eq_of_cover 2 (finalArr m c) (flushed_eq m c) fun i => by
    have hN : cfg0.N = 32 := N_0
    have hi0 : (i 0).val < 2 := (i 0).isLt
    have hi1 : (i 1).val < 3 := (i 1).isLt
    have hi2 : (i 2).val < 128 := (i 2).isLt
    have ht : 16 * (i 0).val + 15 < cfg0.N := by rw [hN]; omega
    have htv : (⟨16 * (i 0).val + 15, ht⟩ : Fin cfg0.N).val = 16 * (i 0).val + 15 := rfl
    obtain ⟨e0, e1, e2⟩ := out_index ⟨16 * (i 0).val + 15, ht⟩
    refine ⟨⟨16 * (i 0).val + 15, ht⟩, (flush0_2 _).mpr (by rw [htv]; omega), ?_⟩
    show i ∈ ((View.whole main_v0).slice (win0_2.rect ⟨16 * (i 0).val + 15, ht⟩)).set
    rw [View.set_slice_whole, Rect.mem_set_unit]
    intro a
    match a with
    | ⟨0, _⟩ =>
      show win0_2.index ⟨16 * (i 0).val + 15, ht⟩ (0 : Fin 3) * 1 ≤ (i 0).val
        ∧ (i 0).val < win0_2.index ⟨16 * (i 0).val + 15, ht⟩ (0 : Fin 3) * 1 + 1
      rw [e0, htv]; omega
    | ⟨1, _⟩ =>
      show win0_2.index ⟨16 * (i 0).val + 15, ht⟩ (1 : Fin 3) * 3 ≤ (i 1).val
        ∧ (i 1).val < win0_2.index ⟨16 * (i 0).val + 15, ht⟩ (1 : Fin 3) * 3 + 3
      rw [e1]; omega
    | ⟨2, _⟩ =>
      show win0_2.index ⟨16 * (i 0).val + 15, ht⟩ (2 : Fin 3) * 128 ≤ (i 2).val
        ∧ (i 2).val < win0_2.index ⟨16 * (i 0).val + 15, ht⟩ (2 : Fin 3) * 128 + 128
      rw [e2]; omega

end Cert.KernelIdeal.Hist

end
-- ==== Proof.Spec.lean ====
/-
  The statistic both programs compute, as mathematics over the extended reals.

  For confidences `P` and accuracies `T` over the 16 × 1024 × 1024 positions, an entry `p` belongs to bin
  `clamp(⌊20·p⌋, 0, 19)` and carries the weight 1 when `0 ≤ p < 1` and 0 otherwise. For each of the twenty bins three
  numbers are formed: the sum of the weights of the bin's entries (row 0), the sum of weight × confidence (row 1) and
  the sum of weight × accuracy (row 2) — `stat P T r k`, ONE sum over all positions with the bin's indicator inside.
  From the three rows the result is the mean over the non-empty bins of |row 1 / row 0 − row 2 / row 0|, with an
  empty bin's divisor replaced by 1 and the number of non-empty bins by at least 1 — `tail`.

  An entry outside [0, 1) has weight 0, so which bin its (possibly clamped or saturated) index names never matters;
  and since sums and products of extended reals commute and associate, and 0 · x = 0 for every x, no finiteness of the
  inputs is needed to regroup the sum.
-/
import Idealize.ShloMosaic.PureOps.Ideal
import Idealize.ShloMosaic.PureOps.Ideal.Laws
import Idealize.ShloMosaic.PureOps.Contract
import Idealize.ShloMosaic.Lib.ValueIdx

noncomputable section

namespace Cert.Hist

open Idealize.ShloMosaic

/-- The arrays' shape, the twenty bins, and a scalar. -/
abbrev SArr : Shape := ⟨3, ![16, 1024, 1024]⟩
abbrev SBins : Shape := ⟨1, ![20]⟩
abbrev SOne : Shape := ⟨0, ![]⟩

/-- The bin of a confidence, as the 32-bit word both programs form: ⌊20·p⌋ converted to a signed word (an infinity
    or an out-of-range value clamped), then clamped to 0 … 19. -/
def binWord (p : EReal) : BitVec 32 :=
  IntOp.minsi 19#32 (IntOp.maxsi 0#32 (Ideal.fptosi 32 (Ideal.liftRound Int.floor (p * Ideal.ofBits .f32 0x41A00000#32))))

/-- The bit "0 ≤ p and p < 1". -/
def inUnit (p : EReal) : BitVec 1 :=
  IntOp.andi (Ideal.cmp .oge p (Ideal.ofBits .f32 0x00000000#32)) (Ideal.cmp .olt p (Ideal.ofBits .f32 0x3F800000#32))

/-- The weight of an entry: that bit as a number, 0 or 1. -/
def weight (p : EReal) : EReal := (((inUnit p).toNat : ℝ) : EReal)

/-- What one entry adds to row `r` of its bin: its weight, its weight × confidence, its weight × accuracy. -/
def term (r : Fin 3) (p t : EReal) : EReal :=
  match r with
  | 0 => weight p
  | 1 => weight p * p
  | 2 => weight p * t

/-- What one entry (confidence `p`, accuracy `t`) adds to row `r` of bin number `k`: its term if it is in that bin, else 0. -/
def contrib (r : Fin 3) (k : ℕ) (p t : EReal) : EReal :=
  if binWord p = BitVec.ofNat 32 k then term r p t else 0

/-- Row `r` of bin `k`: the sum over ALL positions of the entries of that bin. -/
def stat (P T : SArr.Idx → EReal) (r : Fin 3) (k : Fin 20) : EReal :=
  ∑ i : SArr.Idx, contrib r k.val (P i) (T i)

/-- A row as an array over the bins. -/
def statRow (P T : SArr.Idx → EReal) (r : Fin 3) : SBins.Idx → EReal := fun i => stat P T r (i 0)

variable {F : FTy → Type} [FloatOps F]

/-- From the three rows to the result, in the operations both programs end with: the non-empty bins are those with
    a positive count; each bin's |row 1 / divisor − row 2 / divisor| with the divisor the count or, for an empty bin,
    1; the sum of these over the non-empty bins divided by the number of non-empty bins or, if there is none, by 1. -/
def tail (hb : SOne.BroadcastsInDim SBins (![] : Fin 0 → Fin SBins.rank)) (hr : SBins.ReducesTo [0] SOne) (h0 : 0 < SOne.numel)
    (cnt sp st : FVec F SBins .f32) : FVec F SOne .f32 :=
  let nonEmpty : IVec SBins 1 := cmpf .ogt cnt (broadcastInDim SBins ![] hb (constant (F := F) SOne .f32 0x00000000#32))
  let divisor : FVec F SBins .f32 := select nonEmpty cnt (broadcastInDim SBins ![] hb (id (constant (F := F) SOne .f32 0x3F800000#32)))
  let gap : FVec F SBins .f32 := Host.absf (subf (Host.divf sp divisor) (Host.divf st divisor))
  let nBins : FVec F SOne .f32 := Host.reduceAdd (uitofp .f32 nonEmpty) (constant (F := F) SOne .f32 0x00000000#32) hr h0
  let total : FVec F SOne .f32 :=
    Host.reduceAdd (select nonEmpty gap (broadcastInDim SBins ![] hb (id (constant (F := F) SOne .f32 0x00000000#32))))
      (constant (F := F) SOne .f32 0x00000000#32) hr h0
  Host.divf total (maximumf nBins (constant (F := F) SOne .f32 0x3F800000#32))

end Cert.Hist

end
-- ==== Proof.KTail.lean ====
/-
  The host operations after the region, over the extended reals: the two groups' blocks are added, rows 0, 1 and 2 of
  the sum are cut to their first twenty lanes, and the shared tail is applied to the three rows.
-/
import proofs.«148604_j84404697301125_2_alg».proof.Proof.KFinal
import proofs.«148604_j84404697301125_2_alg».proof.Proof.Spec
import Idealize.ShloMosaic.Lib.StableHlo.Run

noncomputable section

namespace Cert.KernelIdeal.Hist

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ)

/-- Row `r` of the two groups' summed blocks, cut to the twenty bins. -/
def hostRow (A : FVec Ideal S2x3x128 .f32) (r : ℕ) (hs : S3x128.Slices ![r, 0] S1x20) : FVec Ideal S20 .f32 :=
  shapeCast S20 (extractStridedSlice S1x20 ![r, 0]
    (Host.reduceAdd (F := Ideal) A (constant (F := Ideal) S_ .f32 0x00000000#32) reducesTo_S2x3x128_S3x128_d0 h_S_) hs)
    shapeCasts_S1x20_S20

/-- The result buffer after the tail, from the region's output array. -/
theorem tail_result (c : Dev nD) :
    Pipeline.afterTail₀ cfgs (dats (F := Ideal) m) 0 (V0 m) [hostOps1, hostOps1_1, hostOps1_2, hostOps1_3, hostOps1_4] c main_v20
      = Cert.Hist.tail (F := Ideal) bcast_S_S20 reducesTo_S20_S_d0 h_S_
          (hostRow (finalArr m c) 0 slices_S3x128_S1x20_0_0) (hostRow (finalArr m c) 1 slices_S3x128_S1x20_1_0)
          (hostRow (finalArr m c) 2 slices_S3x128_S1x20_2_0) := by
  unfold Pipeline.afterTail₀
  simp only [hostOps1, hostOps1_1, hostOps1_2, hostOps1_3, hostOps1_4, List.flatten_cons, List.flatten_nil,
    List.append_nil, List.cons_append, List.nil_append]
  after_results_simp
  have hA : Pipeline.withArrays (cfgs 0).spec c (V0 m c) (fun w => (dats (F := Ideal) m 0 c).arrAt w (cfgs 0).N)
      (Proc.devRef .tc main_v0) = finalArr m c :=
    (Pipeline.withArrays_arr spec0 launch0.win.arr_inj c _ _ 2).trans (final_v0 m c)
  rw [hA]
  rfl

end Cert.KernelIdeal.Hist

end
-- ==== Proof.KBlockSum.lean ====
/-
  At the exact instance the kernel's block sum is the plain double sum of the block's entries.
-/
import proofs.«148604_j84404697301125_2_alg».proof.Proof.KDelta
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hist

open Idealize.ShloMosaic Idealize.ShloMosaic.ValueIdx Cert.KernelIdeal Cert.KernelIdeal.Gen

/-- The column of ones reads the extended real one at every index. -/
theorem ones_apply (i : S1024x1.Idx) : k0_pay4 (F := Ideal) i = 1 := by
  show Ideal.ofBits .bf16 0x3F80#16 = 1
  exact Ideal.ofBits_one_bf16

/-- The product with the column of ones, into the zero column, reads at row `h` the sum of that row. -/
theorem matmul_ones_apply (X : FVec Ideal S512x1024 .bf16) (h : Fin 512) (u : Fin 1) :
    matmul dot_S512x1024_S1024x1_S512x1_1_0_0_1_n_n none X (k0_pay4 (F := Ideal))
        (constant (F := Ideal) S512x1 .f32 0x00000000#32) (ix2 h u)
      = ∑ w : Fin 1024, X (ix2 h w) := by
  refine (Ideal.matmul_constant_zero_apply _ none X _ (ix2 h u)).trans ?_
  rw [← Equiv.sum_comp (contrEquiv1 dot_S512x1024_S1024x1_S512x1_1_0_0_1_n_n 1024 rfl rfl).symm]
  refine Finset.sum_congr rfl fun w _ => ?_
  rw [ones_apply, mul_one]
  refine congrArg X (funext fun a => Fin.ext ?_)
  match a with
  | ⟨0, _⟩ => rfl
  | ⟨1, _⟩ =>
    exact (DotDims.lhsIdx_val_of_single _ rfl _ _).trans (contrEquiv1_symm_val _ 1024 rfl rfl w)

/-- The lane sum along the unit axis of a 512 × 1 column reads, at row `h`, the column's one entry of that row. -/
theorem laneSum_col_apply (v : FVec Ideal S512x1 .f32) (h : Fin 512) :
    multiReduction (F := Ideal) .add [1] S512 v 0x00000000#32 reduces_S512x1_S512 (.inl rfl) rfl (ix1 h)
      = v (ix2 h (0 : Fin 1)) := by
  refine (Ideal.multiReduction_add_single v 0x00000000#32 reduces_S512x1_S512 (.inl rfl) rfl (ix1 h)).trans ?_
  show ∑ k : Fin 1, v (reduces_S512x1_S512.lift (ix1 h) k) = _
  rw [Fin.sum_univ_one]
  refine congrArg v (funext fun a => Fin.ext ?_)
  match a with
  | ⟨0, _⟩ => rfl
  | ⟨1, _⟩ => rfl

/-- The lane sum along a 1 × 512 row is the sum of the row's 512 entries. -/
theorem laneSum_row_apply (v : FVec Ideal S1x512 .f32) (u : Fin 1) :
    multiReduction (F := Ideal) .add [1] S1 v 0x00000000#32 reduces_S1x512_S1 (.inl rfl) rfl (ix1 u)
      = ∑ h : Fin 512, v (ix2 u h) := by
  refine (Ideal.multiReduction_add_single v 0x00000000#32 reduces_S1x512_S1 (.inl rfl) rfl (ix1 u)).trans ?_
  show ∑ k : Fin 512, v (reduces_S1x512_S1.lift (ix1 u) k) = _
  refine Finset.sum_congr rfl fun k _ => ?_
  refine congrArg v (funext fun a => Fin.ext ?_)
  match a with
  | ⟨0, _⟩ => rfl
  | ⟨1, _⟩ => rfl

/-- Over the extended reals: the product with the ones column gives each row's sum, the two lane sums add those up,
    so the extracted entry is the sum over all rows and columns. -/
theorem blockSum_apply (X : FVec Ideal S512x1024 .bf16) :
    blockSum (F := Ideal) X = ∑ h : Fin 512, ∑ w : Fin 1024, X (ix2 h w) := by
  unfold blockSum
  show shapeCast S1x1 _ shapeCasts_S1_S1x1 (fun a => ⟨(![0, 0] : Fin 2 → Nat) a, inpos_S1x1_p0_0 a⟩) = _
  have hpos : (fun a => ⟨(![0, 0] : Fin 2 → Nat) a, inpos_S1x1_p0_0 a⟩ : S1x1.Idx) = ix2 (0 : Fin 1) (0 : Fin 1) := by
    funext a
    match a with
    | ⟨0, _⟩ => rfl
    | ⟨1, _⟩ => rfl
  rw [hpos, shapeCast_a_1a_apply, laneSum_row_apply]
  refine Finset.sum_congr rfl fun h _ => ?_
  rw [shapeCast_a_1a_apply, laneSum_col_apply, matmul_ones_apply]

end Cert.KernelIdeal.Hist

end
-- ==== Proof.KPayload.lean ====
/-
  One grid point's contribution, entry by entry, over the extended reals: row r, lane l (l < 20) of the 3 × 128 block
  the point adds is the sum over the point's 512 × 1024 entries of what each adds to row r of bin l.
-/
import proofs.«148604_j84404697301125_2_alg».proof.Proof.KBlockSum
import proofs.«148604_j84404697301125_2_alg».proof.Proof.Spec

noncomputable section

namespace Cert.KernelIdeal.Hist

open Idealize.ShloMosaic Idealize.ShloMosaic.ValueIdx Cert.KernelIdeal Cert.KernelIdeal.Gen Cert.Hist

namespace Payload

/-- The loop runs twenty trips. -/
theorem trips_eq : k0_t1_loop.trips = 20 := by decide

/-- A fold of independent updates of three carried values is the three folds. -/
theorem foldl_triple {α β γ ι : Type} (ks : List ι) (f : ι → α → α) (g : ι → β → β) (h : ι → γ → γ) (a : α) (b : β) (c : γ) :
    ks.foldl (fun (acc : α × β × γ) k => (f k acc.1, g k acc.2.1, h k acc.2.2)) (a, b, c)
      = (ks.foldl (fun acc k => f k acc) a, ks.foldl (fun acc k => g k acc) b, ks.foldl (fun acc k => h k acc) c) := by
  induction ks generalizing a b c with
  | nil => rfl
  | cons k ks ih => simp only [List.foldl_cons]; exact ih _ _ _

/-- Adding a family of rows one after the other, read at a lane: the start plus the sum of the family at that lane. -/
theorem foldl_addf_apply {ι : Type} (ks : List ι) (f : ι → FVec Ideal S1x128 .f32) (z : FVec Ideal S1x128 .f32) (i : S1x128.Idx) :
    (ks.foldl (fun acc k => addf acc (f k)) z) i = z i + (ks.map fun k => f k i).sum := by
  induction ks generalizing z with
  | nil => simp
  | cons k ks ih => rw [List.foldl_cons, ih, addf_apply, List.map_cons, List.sum_cons, add_assoc]

/-- A bit widened to a word and converted is the number 1 or 0. -/
theorem sitofp_bit (b : BitVec 1) :
    FloatOps.sitofp (F := Ideal) .f32 (BitVec.setWidth 32 b) = if b = 1#1 then (1 : EReal) else 0 := by
  show (((BitVec.setWidth 32 b).toInt : ℝ) : EReal) = _
  by_cases h : b = 1#1
  · subst h; rw [if_pos rfl]; have : (BitVec.setWidth 32 1#1).toInt = 1 := by decide
    rw [this]; simp
  · have h0 := eq_zero_of_ne_one h; subst h0; rw [if_neg h]; have : (BitVec.setWidth 32 0#1).toInt = 0 := by decide
    rw [this]; simp

/-- The loop's counter at trip k is the word of k. -/
theorem iv_eq (k : Nat) : Scf.iv 0#32 1#32 k = BitVec.ofNat 32 k := by
  simp [Scf.iv]

/-- The equality test of two words gives the bit 1 exactly when they are equal. -/
theorem cmpi_eq_iff {w : Nat} (x y : BitVec w) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun hc => absurd hc (by decide), fun hc => absurd hc h⟩

/-- Two numbers below 2^32 have the same word exactly when they are equal. -/
theorem ofNat_eq_iff (a b : Nat) (ha : a < 2 ^ 32) (hb : b < 2 ^ 32) :
    BitVec.ofNat 32 a = BitVec.ofNat 32 b ↔ a = b := by
  constructor
  · intro he
    have := congrArg BitVec.toNat he
    simp only [BitVec.toNat_ofNat] at this
    rwa [Nat.mod_eq_of_lt ha, Nat.mod_eq_of_lt hb] at this
  · intro h; rw [h]

/-- The one-hot lane row of trip k, read at lane l: 1 when l is the trip's number, else 0 (the lane number along the
    row against the loop's counter, both as words below 2^32). -/
theorem pay9_apply (k : Fin k0_t1_loop.trips) (l : Fin 128) :
    k0_pay9 (F := Ideal) k (ix2 (0 : Fin 1) l) = if l.val = k.val then (1 : EReal) else 0 := by
  show FloatOps.sitofp (F := Ideal) .f32 (BitVec.setWidth 32 (IntOp.cmpi .eq
      (iota .tc S1x128 32 [1] iota_S1x128_d1_w32 (ix2 (0 : Fin 1) l)) (Scf.iv 0#32 1#32 k.val))) = _
  rw [sitofp_bit, iota_single_apply, iv_eq]
  show (if IntOp.cmpi .eq (BitVec.ofNat 32 l.val) (BitVec.ofNat 32 k.val) = 1#1 then (1 : EReal) else 0) = _
  have hk : k.val < 2 ^ 32 := by have := k.isLt; have h20 := trips_eq; omega
  have hl : l.val < 2 ^ 32 := by have := l.isLt; omega
  simp only [cmpi_eq_iff, ofNat_eq_iff _ _ hl hk]

/-- The trip whose number is the lane's. -/
def tripOf (l : Fin 128) (hl : l.val < 20) : Fin k0_t1_loop.trips := ⟨l.val, by rw [trips_eq]; exact hl⟩

/-- Twenty trips each adding "one-hot lane of the trip × a number" to a row that starts at zero in lane l leave, in
    lane l < 20, the number of trip l. -/
theorem lane_sum (s : Fin k0_t1_loop.trips → EReal) (z : FVec Ideal S1x128 .f32) (l : Fin 128) (hl : l.val < 20)
    (hz : z (ix2 (0 : Fin 1) l) = 0) :
    ((List.finRange k0_t1_loop.trips).foldl
        (fun acc k => addf acc (mulf (k0_pay9 (F := Ideal) k) (broadcast S1x128 (s k)))) z) (ix2 (0 : Fin 1) l)
      = s (tripOf l hl) := by
  rw [foldl_addf_apply (List.finRange k0_t1_loop.trips) (fun k => mulf (k0_pay9 (F := Ideal) k) (broadcast S1x128 (s k))) z,
    hz, zero_add, ← Fin.sum_univ_def]
  rw [Finset.sum_eq_single (tripOf l hl)]
  · rw [mulf_apply, broadcast_apply, pay9_apply, if_pos (show l.val = (tripOf l hl).val from rfl), one_mul]
  · intro k _ hk
    rw [mulf_apply, broadcast_apply, pay9_apply, if_neg, zero_mul]
    intro he; exact hk (Fin.ext he.symm)
  · intro hn; exact absurd (Finset.mem_univ _) hn

/-- The three start rows are zero. -/
theorem pay5_apply (i : S1x128.Idx) : k0_pay5 (F := Ideal) i = 0 := Ideal.ofBits_zero_f32
theorem pay6_apply (i : S1x128.Idx) : k0_pay6 (F := Ideal) i = 0 := Ideal.ofBits_zero_f32
theorem pay7_apply (i : S1x128.Idx) : k0_pay7 (F := Ideal) i = 0 := Ideal.ofBits_zero_f32

/-- The three rows are three separate folds, each adding its trip's term. -/
theorem rows_eq (x0 x1 : Vec Ideal S1x512x1024 .f32) :
    rows (F := Ideal) x0 x1 =
      ((List.finRange k0_t1_loop.trips).foldl (fun acc k => k0_pay10 x0 k acc) k0_pay5,
       (List.finRange k0_t1_loop.trips).foldl (fun acc k => k0_pay11 x0 k acc) k0_pay6,
       (List.finRange k0_t1_loop.trips).foldl (fun acc k => k0_pay12 x0 x1 k acc) k0_pay7) := by
  unfold rows
  rw [Scf.fold_eq]
  exact foldl_triple _ (k0_pay10 x0) (k0_pay11 x0) (k0_pay12 x0 x1) _ _ _

/-- Lane l < 20 of the count row: the block's sum of bin l's mask. -/
theorem row0_apply (x0 x1 : Vec Ideal S1x512x1024 .f32) (l : Fin 128) (hl : l.val < 20) :
    (rows (F := Ideal) x0 x1).1 (ix2 (0 : Fin 1) l) = blockSum (k0_pay8 x0 (tripOf l hl)) := by
  rw [rows_eq]
  simp only [pay10_eq]
  exact lane_sum (fun k => blockSum (k0_pay8 x0 k)) _ l hl (pay5_apply _)

/-- Lane l < 20 of the confidence row: the block's sum of bin l's mask × confidence. -/
theorem row1_apply (x0 x1 : Vec Ideal S1x512x1024 .f32) (l : Fin 128) (hl : l.val < 20) :
    (rows (F := Ideal) x0 x1).2.1 (ix2 (0 : Fin 1) l)
      = blockSum (mulf (k0_pay8 x0 (tripOf l hl)) (truncf .bf16 (k0_pay3 x0) bitsLt_bf16_f32)) := by
  rw [rows_eq]
  simp only [pay11_eq]
  exact lane_sum (fun k => blockSum (mulf (k0_pay8 x0 k) (truncf .bf16 (k0_pay3 x0) bitsLt_bf16_f32))) _ l hl (pay6_apply _)

/-- Lane l < 20 of the accuracy row: the block's sum of bin l's mask × accuracy. -/
theorem row2_apply (x0 x1 : Vec Ideal S1x512x1024 .f32) (l : Fin 128) (hl : l.val < 20) :
    (rows (F := Ideal) x0 x1).2.2 (ix2 (0 : Fin 1) l)
      = blockSum (mulf (k0_pay8 x0 (tripOf l hl))
          (truncf .bf16 (shapeCast S512x1024 x1 shapeCasts_S1x512x1024_S512x1024) bitsLt_bf16_f32)) := by
  rw [rows_eq]
  simp only [pay12_eq]
  exact lane_sum (fun k => blockSum (mulf (k0_pay8 x0 k)
    (truncf .bf16 (shapeCast S512x1024 x1 shapeCasts_S1x512x1024_S512x1024) bitsLt_bf16_f32))) _ l hl (pay7_apply _)

/-- The stacked block read at row 0, 1, 2: the first, second, third row. -/
theorem pay13_apply0 (a b c : FVec Ideal S1x128 .f32) (l : Fin 128) :
    k0_pay13 a b c (ix2 (0 : Fin 3) l) = a (ix2 (0 : Fin 1) l) := by
  unfold k0_pay13
  refine concatenate_apply_piece (0 : Fin S3x128.rank) _ _ _ 0 (by show (0 : Nat) < 3; decide) S1x128 a rfl rfl 0 rfl (ix2 (0 : Fin 1) l) ?_ rfl
  intro d hd
  match d with
  | ⟨0, _⟩ => exact absurd rfl hd
  | ⟨1, _⟩ => rfl

theorem pay13_apply1 (a b c : FVec Ideal S1x128 .f32) (l : Fin 128) :
    k0_pay13 a b c (ix2 (1 : Fin 3) l) = b (ix2 (0 : Fin 1) l) := by
  unfold k0_pay13
  refine concatenate_apply_piece (0 : Fin S3x128.rank) _ _ _ 1 (by show (1 : Nat) < 3; decide) S1x128 b rfl rfl 1 rfl (ix2 (0 : Fin 1) l) ?_ rfl
  intro d hd
  match d with
  | ⟨0, _⟩ => exact absurd rfl hd
  | ⟨1, _⟩ => rfl

theorem pay13_apply2 (a b c : FVec Ideal S1x128 .f32) (l : Fin 128) :
    k0_pay13 a b c (ix2 (2 : Fin 3) l) = c (ix2 (0 : Fin 1) l) := by
  unfold k0_pay13
  refine concatenate_apply_piece (0 : Fin S3x128.rank) _ _ _ 2 (by show (2 : Nat) < 3; decide) S1x128 c rfl rfl 2 rfl (ix2 (0 : Fin 1) l) ?_ rfl
  intro d hd
  match d with
  | ⟨0, _⟩ => exact absurd rfl hd
  | ⟨1, _⟩ => rfl

/-- The block without its unit axis reads the block. -/
theorem pay3_apply (x0 : Vec Ideal S1x512x1024 .f32) (h : Fin 512) (w : Fin 1024) :
    k0_pay3 (F := Ideal) x0 (ix2 h w) = x0 (ix3 (0 : Fin 1) h w) :=
  shapeCast_1ab_ab_apply x0 shapeCasts_S1x512x1024_S512x1024 h w

/-- The same for the accuracies' block. -/
theorem cast1_apply (x1 : Vec Ideal S1x512x1024 .f32) (h : Fin 512) (w : Fin 1024) :
    shapeCast S512x1024 x1 shapeCasts_S1x512x1024_S512x1024 (ix2 h w) = x1 (ix3 (0 : Fin 1) h w) :=
  shapeCast_1ab_ab_apply x1 shapeCasts_S1x512x1024_S512x1024 h w

/-- The bin word of an entry, in the operations of the exact instance. -/
theorem binWord_eq (p : EReal) :
    binWord p = IntOp.minsi 19#32 (IntOp.maxsi 0#32 (FloatOps.fptosi (F := Ideal) 32
      (FloatOps.floor (F := Ideal) (φ := .f32) (FloatOps.mulf (F := Ideal) (φ := .f32) p (Scalar.ofBits (F := Ideal) .f32 0x41A00000#32))))) := rfl

/-- The in-range bit of an entry, in the operations of the exact instance. -/
theorem inUnit_eq (p : EReal) :
    inUnit p = IntOp.andi (FloatOps.cmpf (F := Ideal) (φ := .f32) .oge p (Scalar.ofBits (F := Ideal) .f32 0x00000000#32))
      (FloatOps.cmpf (F := Ideal) (φ := .f32) .olt p (Scalar.ofBits (F := Ideal) .f32 0x3F800000#32)) := rfl

/-- The bin's mask at an entry, operation by operation. -/
theorem pay8_at0 (x0 : Vec Ideal S1x512x1024 .f32) (k : Fin k0_t1_loop.trips) (i : S512x1024.Idx) :
    k0_pay8 (F := Ideal) x0 k i
      = FloatOps.truncf (F := Ideal) (φ := .f32) .bf16 bitsLt_bf16_f32 (Scalar.select (IntOp.cmpi .eq
            (IntOp.minsi 19#32 (IntOp.maxsi 0#32 (FloatOps.fptosi (F := Ideal) 32
              (FloatOps.floor (F := Ideal) (φ := .f32) (FloatOps.mulf (F := Ideal) (φ := .f32) (k0_pay3 (F := Ideal) x0 i) (Scalar.ofBits (F := Ideal) .f32 0x41A00000#32))))))
            (Scf.iv 0#32 1#32 k.val))
          (FloatOps.sitofp (F := Ideal) .f32 (BitVec.setWidth 32
            (IntOp.andi (FloatOps.cmpf (F := Ideal) (φ := .f32) .oge (k0_pay3 (F := Ideal) x0 i) (Scalar.ofBits (F := Ideal) .f32 0x00000000#32))
              (FloatOps.cmpf (F := Ideal) (φ := .f32) .olt (k0_pay3 (F := Ideal) x0 i) (Scalar.ofBits (F := Ideal) .f32 0x3F800000#32)))))
          (Scalar.ofBits (F := Ideal) .f32 0x00000000#32)) := rfl

/-- The bin's mask at an entry, in the words of the statistic: the bin test on the entry's bin word, the entry's
    in-range bit as a number, and zero. -/
theorem pay8_at (x0 : Vec Ideal S1x512x1024 .f32) (k : Fin k0_t1_loop.trips) (i : S512x1024.Idx) :
    k0_pay8 (F := Ideal) x0 k i
      = Scalar.select (IntOp.cmpi .eq (binWord (k0_pay3 (F := Ideal) x0 i)) (Scf.iv 0#32 1#32 k.val))
          (FloatOps.sitofp (F := Ideal) .f32 (BitVec.setWidth 32 (inUnit (k0_pay3 (F := Ideal) x0 i))))
          (Scalar.ofBits (F := Ideal) .f32 0x00000000#32) := by
  rw [pay8_at0, Ideal.truncf_def, binWord_eq, inUnit_eq]

/-- The zero constant is the number 0. -/
theorem scalar_zero : Scalar.ofBits (F := Ideal) .f32 0x00000000#32 = 0 := Ideal.ofBits_zero_f32

/-- The in-range bit as a number is the entry's weight. -/
theorem sitofp_inUnit (p : EReal) :
    FloatOps.sitofp (F := Ideal) .f32 (BitVec.setWidth 32 (inUnit p)) = weight p := by
  rw [sitofp_bit]
  unfold weight
  by_cases h : inUnit p = 1#1
  · rw [if_pos h, h]; simp
  · rw [if_neg h, eq_zero_of_ne_one h]; simp

/-- The bin's mask at an entry: the entry's weight if its bin is the trip's, else zero. -/
theorem pay8_apply (x0 : Vec Ideal S1x512x1024 .f32) (k : Fin k0_t1_loop.trips) (h : Fin 512) (w : Fin 1024) :
    k0_pay8 (F := Ideal) x0 k (ix2 h w)
      = if binWord (x0 (ix3 (0 : Fin 1) h w)) = BitVec.ofNat 32 k.val then weight (x0 (ix3 (0 : Fin 1) h w)) else 0 := by
  rw [pay8_at, pay3_apply, iv_eq, sitofp_inUnit, scalar_zero]
  by_cases hb : binWord (x0 (ix3 (0 : Fin 1) h w)) = BitVec.ofNat 32 k.val
  · rw [if_pos hb, (cmpi_eq_iff _ _).mpr hb, select_one]
  · rw [if_neg hb, eq_zero_of_ne_one (mt (cmpi_eq_iff _ _).mp hb), select_zero]

end Payload

open Payload in
/-- Row r, lane l < 20 of what one grid point adds: the stacked block reads row r's lane l; that lane holds the sum over
    the trips of "one-hot lane × block sum", of which only trip l survives; the block sum is the double sum of the
    entries; and each entry of the masked block is the entry's term when its bin word is l's word, else zero. -/
theorem delta_apply (x0 x1 : Vec Ideal S1x512x1024 .f32) (r : Fin 3) (l : Fin 128) (hl : l.val < 20) :
    delta (F := Ideal) x0 x1 (ix2 r l)
      = ∑ h : Fin 512, ∑ w : Fin 1024, contrib r l.val (x0 (ix3 (0 : Fin 1) h w)) (x1 (ix3 (0 : Fin 1) h w)) := by
  unfold delta
  match r with
  | 0 =>
    rw [pay13_apply0, row0_apply x0 x1 l hl, blockSum_apply]
    refine Finset.sum_congr rfl fun h _ => Finset.sum_congr rfl fun w _ => ?_
    rw [pay8_apply]
    rfl
  | 1 =>
    rw [pay13_apply1, row1_apply x0 x1 l hl, blockSum_apply]
    refine Finset.sum_congr rfl fun h _ => Finset.sum_congr rfl fun w _ => ?_
    rw [mulf_apply, truncf_apply, pay8_apply, pay3_apply, ite_mul, zero_mul]
    rfl
  | 2 =>
    rw [pay13_apply2, row2_apply x0 x1 l hl, blockSum_apply]
    refine Finset.sum_congr rfl fun h _ => Finset.sum_congr rfl fun w _ => ?_
    rw [mulf_apply, truncf_apply, pay8_apply, cast1_apply, ite_mul, zero_mul]
    rfl

end Cert.KernelIdeal.Hist

end
-- ==== Proof.KValue.lean ====
/-
  The three rows the host forms from the kernel's output ARE the rows of the statistic.

  Row r at bin k is 0 plus the two groups' totals at (r, k); a group's total is the sum of its sixteen points'
  contributions, so the two together are the sum over all 32 points; a point's contribution at (r, k) is the sum over
  its 512 × 1024 entries of what each adds to row r of bin k; and point t's block is rows (t mod 2)·512 … + 511 of
  plane t / 2 of the arrays, so "point, row in the block, column" names every position of the 16 × 1024 × 1024
  arrays exactly once. Sums of extended reals may be regrouped freely.
-/
import proofs.«148604_j84404697301125_2_alg».proof.Proof.KTail
import proofs.«148604_j84404697301125_2_alg».proof.Proof.KPayload

noncomputable section

namespace Cert.KernelIdeal.Hist

open Idealize.ShloMosaic Idealize.ShloMosaic.TcCoe Idealize.SL.Sem Idealize.ShloMosaic.ValueIdx
open Cert.KernelIdeal Cert.KernelIdeal.Gen Cert.Hist

variable (m : (ℓ : Loc nD τ sig) → Buf (Elt Ideal) ℓ)

/-! ## A point's blocks are rows of a plane of the arrays -/

/-- The position of entry (h, w) of point t's block: plane t / 2, row (t mod 2)·512 + h, column w. -/
def pos (t : Fin 32) (h : Fin 512) (w : Fin 1024) : SArr.Idx :=
  ix3 (⟨t.val / 2, by have := t.isLt; omega⟩ : Fin 16) (⟨t.val % 2 * 512 + h.val, by have := h.isLt; omega⟩ : Fin 1024) w

/-- Both input windows' block index at point t: (t / 2, t mod 2, 0) — decided over the grid. -/
theorem in_index : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0) :=
  (by decide +kernel : ∀ t : Fin grid0.N, _)

theorem iblk0_apply (c : Dev nD) (t : Fin cfg0.N) (h : Fin 512) (w : Fin 1024) :
    iblk m c 0 t (ix3 (0 : Fin 1) h w) = m ((c : Thread nD τ).loc main_arg0) (pos (Fin.cast N_0 t) h w) := by
  obtain ⟨⟨e0, e1, e2⟩, -⟩ := in_index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val / 2; omega
  | ⟨1, _⟩ => show win0_0.index t (1 : Fin 3) * 512 + 1 * h.val = t.val % 2 * 512 + h.val; omega
  | ⟨2, _⟩ => show win0_0.index t (2 : Fin 3) * 1024 + 1 * w.val = w.val; omega

theorem iblk1_apply (c : Dev nD) (t : Fin cfg0.N) (h : Fin 512) (w : Fin 1024) :
    iblk m c 1 t (ix3 (0 : Fin 1) h w) = m ((c : Thread nD τ).loc main_arg1) (pos (Fin.cast N_0 t) h w) := by
  obtain ⟨-, ⟨e0, e1, e2⟩⟩ := in_index t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = t.val / 2; omega
  | ⟨1, _⟩ => show win0_1.index t (1 : Fin 3) * 512 + 1 * h.val = t.val % 2 * 512 + h.val; omega
  | ⟨2, _⟩ => show win0_1.index t (2 : Fin 3) * 1024 + 1 * w.val = w.val; omega

/-- Point t's contribution at row r, lane l < 20: its block's entries' contributions to row r of bin l. -/
theorem contribAt_apply (c : Dev nD) (t : Fin cfg0.N) (r : Fin 3) (l : Fin 128) (hl : l.val < 20) :
    contribAt m c t (ix2 r l) = ∑ h : Fin 512, ∑ w : Fin 1024,
      contrib r l.val (m ((c : Thread nD τ).loc main_arg0) (pos (Fin.cast N_0 t) h w))
        (m ((c : Thread nD τ).loc main_arg1) (pos (Fin.cast N_0 t) h w)) := by
  unfold contribAt
  refine (delta_apply (iblk m c 0 t) (iblk m c 1 t) r l hl).trans ?_
  refine Finset.sum_congr rfl fun h _ => Finset.sum_congr rfl fun w _ => ?_
  rw [iblk0_apply, iblk1_apply]

/-! ## Every position is one (point, row, column) -/

/-- (point, row in the block, column) ↔ position of the array. -/
def posEquiv : Fin 32 × Fin 512 × Fin 1024 ≃ SArr.Idx where
  toFun x := pos x.1 x.2.1 x.2.2
  invFun i := (⟨2 * (i 0).val + (i 1).val / 512, by have h0 : (i 0).val < 16 := (i 0).isLt; have h1 : (i 1).val < 1024 := (i 1).isLt; omega⟩,
    ⟨(i 1).val % 512, Nat.mod_lt _ (by decide)⟩, ⟨(i 2).val, (i 2).isLt⟩)
  left_inv x := by
    obtain ⟨t, h, w⟩ := x
    have ht := t.isLt; have hh := h.isLt
    refine Prod.ext (Fin.ext ?_) (Prod.ext (Fin.ext ?_) (Fin.ext ?_))
    · show 2 * (t.val / 2) + (t.val % 2 * 512 + h.val) / 512 = t.val; omega
    · show (t.val % 2 * 512 + h.val) % 512 = h.val; omega
    · rfl
  right_inv i := by
    have h0 : (i 0).val < 16 := (i 0).isLt
    have h1 : (i 1).val < 1024 := (i 1).isLt
    funext a
    apply Fin.ext
    match a with
    | ⟨0, _⟩ => show (2 * (i 0).val + (i 1).val / 512) / 2 = (i 0).val; omega
    | ⟨1, _⟩ => show (2 * (i 0).val + (i 1).val / 512) % 2 * 512 + (i 1).val % 512 = (i 1).val; omega
    | ⟨2, _⟩ => rfl

/-- A sum over points, rows and columns is the sum over the array's positions. -/
theorem sum_pos (G : SArr.Idx → EReal) :
    ∑ t : Fin 32, ∑ h : Fin 512, ∑ w : Fin 1024, G (pos t h w) = ∑ i : SArr.Idx, G i := by
  rw [← Equiv.sum_comp posEquiv G, Fintype.sum_prod_type]
  refine Finset.sum_congr rfl fun t _ => ?_
  rw [Fintype.sum_prod_type]
  rfl

/-! ## The host's rows -/

/-- The two groups' totals together are all points' contributions. -/
theorem sum_groups (c : Dev nD) (y : S3x128.Idx) :
    ∑ g : Fin 2, groupTotal m c g.val y = ∑ t : Fin cfg0.N, contribAt m c t y := by
  have hN : cfg0.N = 32 := N_0
  unfold groupTotal
  rw [Finset.sum_comm]
  refine Finset.sum_congr rfl fun t _ => ?_
  have ht : t.val < 32 := lt_of_lt_of_eq t.isLt hN
  rw [Fin.sum_univ_two]
  by_cases h0 : t.val / 16 = 0
  · rw [if_pos (by simpa using h0), if_neg (by show ¬ t.val / 16 = 1; omega), add_zero]
  · rw [if_neg (by simpa using h0), if_pos (by show t.val / 16 = 1; omega), zero_add]

/-- Row r of the host's sum of the two blocks, cut to twenty lanes, at bin k: 0 plus the two groups' totals there. -/
theorem hostRow_apply (A : FVec Ideal S2x3x128 .f32) (r : Fin 3) (hs : S3x128.Slices ![r.val, 0] S1x20) (k : Fin 20) :
    hostRow A r.val hs (ix1 k)
      = 0 + ∑ g : Fin 2, A (ix3 g r (⟨k.val, by have := k.isLt; omega⟩ : Fin 128)) := by
  unfold hostRow
  rw [shapeCast_1a_a_apply]
  unfold extractStridedSlice
  have hR : S2x3x128.Reduces [0] S3x128 := by decide
  show Ideal.hostReduceAdd reducesTo_S2x3x128_S3x128_d0 A (Ideal.ofBits .f32 0x00000000#32) _ = _
  rw [Ideal.hostReduceAdd_single reducesTo_S2x3x128_S3x128_d0 hR, Ideal.ofBits_zero_f32]
  show 0 + ∑ g : Fin 2, A (hR.lift _ g) = _
  refine congrArg (0 + ·) (Finset.sum_congr rfl fun g _ => congrArg A (funext fun a => Fin.ext ?_))
  match a with
  | ⟨0, _⟩ => rfl
  | ⟨1, _⟩ => show r.val + 0 = r.val; omega
  | ⟨2, _⟩ => show 0 + k.val = k.val; omega

/-- An array whose entry (g, r, l) is group g's total at (r, l) has the statistic's rows as its host rows. -/
theorem hostRow_of_groups (c : Dev nD) (A : FVec Ideal S2x3x128 .f32)
    (hA : ∀ (g : Fin 2) (r : Fin 3) (l : Fin 128), A (ix3 g r l) = groupTotal m c g.val (ix2 r l))
    (r : Fin 3) (hs : S3x128.Slices ![r.val, 0] S1x20) :
    hostRow A r.val hs
      = statRow (m ((c : Thread nD τ).loc main_arg0)) (m ((c : Thread nD τ).loc main_arg1)) r := by
  funext i
  obtain ⟨k, rfl⟩ : ∃ k : Fin 20, i = ix1 k := ⟨i 0, eq_ix1 i⟩
  rw [hostRow_apply, zero_add]
  have hk : (⟨k.val, by have := k.isLt; omega⟩ : Fin 128).val < 20 := k.isLt
  rw [Finset.sum_congr rfl (fun g _ => hA g r _), sum_groups]
  refine (Finset.sum_congr rfl (fun t _ => contribAt_apply m c t r _ hk)).trans ?_
  show _ = stat _ _ r k
  unfold stat
  rw [← sum_pos]
  exact Fintype.sum_equiv (finCongr N_0) _ _ (fun t => rfl)

/-- So each of the host's three rows of the kernel's output array is the statistic's row. -/
theorem hostRow_eq (c : Dev nD) (r : Fin 3) (hs : S3x128.Slices ![r.val, 0] S1x20) :
    hostRow (finalArr m c) r.val hs
      = statRow (m ((c : Thread nD τ).loc main_arg0)) (m ((c : Thread nD τ).loc main_arg1)) r :=
  hostRow_of_groups m c (finalArr m c) (fun g r l => by
    unfold finalArr
    refine congrArg (groupTotal m c g.val) (funext fun a => ?_)
    match a with
    | ⟨0, _⟩ => rfl
    | ⟨1, _⟩ => rfl) r hs

end Cert.KernelIdeal.Hist

end
-- ==== Proof.KRun.lean ====
/-
  The idealized kernel's run, re-posted: its result is the shared tail of the three rows of the statistic of its two
  argument arrays, and the arguments end unchanged.
-/
import proofs.«148604_j84404697301125_2_alg».proof.Proof.KValue

noncomputable section

namespace Cert.KernelIdeal.Hist

open Idealize.ShloMosaic Idealize.ShloMosaic.TcCoe Idealize.SL.Sem Idealize.ShloMosaic.ValueIdx
open Cert.KernelIdeal Cert.KernelIdeal.Gen Cert.Hist

variable (m : (ℓ : Loc nD τ sig) → Buf (Elt Ideal) ℓ) (ρ : Dev nD → PrngReg)

/-- The result: the tail of the statistic's three rows of the arguments. -/
def result (c : Dev nD) : Buf (Elt Ideal) ((c.tc : Thread nD τ).loc main_v20) :=
  tail (F := Ideal) bcast_S_S20 reducesTo_S20_S_d0 h_S_
    (statRow (m ((c.tc : Thread nD τ).loc main_arg0)) (m ((c.tc : Thread nD τ).loc main_arg1)) 0)
    (statRow (m ((c.tc : Thread nD τ).loc main_arg0)) (m ((c.tc : Thread nD τ).loc main_arg1)) 1)
    (statRow (m ((c.tc : Thread nD τ).loc main_arg0)) (m ((c.tc : Thread nD τ).loc main_arg1)) 2)

/-- What the tail leaves in the result buffer is that. -/
theorem tail_eq_result (c : Dev nD) :
    Pipeline.afterTail₀ cfgs (dats (F := Ideal) m) 0 (V0 m) [hostOps1, hostOps1_1, hostOps1_2, hostOps1_3, hostOps1_4] c main_v20
      = result m c := by
  rw [tail_result]
  unfold result
  rw [show hostRow (finalArr m c) 0 slices_S3x128_S1x20_0_0 = _ from hostRow_eq m c 0 slices_S3x128_S1x20_0_0,
    show hostRow (finalArr m c) 1 slices_S3x128_S1x20_1_0 = _ from hostRow_eq m c 1 slices_S3x128_S1x20_1_0,
    show hostRow (finalArr m c) 2 slices_S3x128_S1x20_2_0 = _ from hostRow_eq m c 2 slices_S3x128_S1x20_2_0]

/-- Every weakly fair execution of the idealized kernel ends with the result buffer at `result` and the two argument
    arrays as they were. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v20 (Pipeline.mem_restRefs_of main_v20 rfl (by decide))).trans (tail_eq_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Hist

end
-- ==== Proof.RefValue.lean ====
/-
  The reference's result, over the extended reals, is the shared tail of the three rows of the statistic.
-/
import proofs.«148604_j84404697301125_2_alg».proof.Proof.RefRead
import proofs.«148604_j84404697301125_2_alg».proof.Proof.Spec

noncomputable section

namespace Cert.ReferenceIdeal.Hist

open Idealize.ShloMosaic Idealize.ShloMosaic.TcCoe Idealize.SL.Sem Idealize.ShloMosaic.ValueIdx
open Cert.ReferenceIdeal Cert.ReferenceIdeal.Gen Cert.Hist

open Cert.ReferenceIdeal.ReadP

/-- The reference's last stages, from the three scattered rows on, are the shared tail, operation for operation. -/
theorem tail_of_stages (x0 x1 : (⟨S16x1024x1024, .f32⟩ : BufTy).Contents (Elt Ideal)) :
    val_main_v36 (F := Ideal) x0 x1
      = tail (F := Ideal) bcast_S_S20 reducesTo_S20_S_d0 h_S_ (val_main_v15 (F := Ideal) x0) (val_main_v19 (F := Ideal) x0)
          (val_main_v23 (F := Ideal) x0 x1) := by
  rfl

/-- An update lands on operand index `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    constructor
    · intro hf a
      rw [← hf]
      exact (Int.toNat_of_nonneg (h a).1).symm
    · intro H
      funext a
      apply Fin.ext
      show (d.start j idx a + d.window j a).toNat = (i a).val
      rw [H a]
      exact Int.toNat_natCast _
  · rename_i h
    constructor
    · intro hf; exact absurd hf (by simp)
    · intro H
      exfalso
      apply h
      intro a
      rw [H a]
      exact ⟨Int.natCast_nonneg _, by exact_mod_cast (i a).isLt⟩

abbrev dS : ScatterDims S20 S16777216x1 S16777216 := scatter_S20_S16777216x1_S16777216_n_0_0_1

theorem dS_window (j : S16777216.Idx) (a : Fin S20.rank) : dS.window j a = 0 := by
  have ha : a = 0 := Subsingleton.elim _ _
  subst ha
  unfold ScatterDims.window
  rw [dif_neg]
  decide

theorem dS_start {w : Nat} (j : S16777216.Idx) (idx : IVec S16777216x1 w) (a : Fin S20.rank) :
    dS.start j idx a = (idx (dS.siIdx j ⟨0, by decide⟩)).toInt := by
  have ha : a = 0 := Subsingleton.elim _ _
  subst ha
  unfold ScatterDims.start
  rw [dif_pos (by decide)]
  rfl

/-- A small natural number, as a 32-bit word read signed, is itself. -/
theorem toInt_ofNat_small (k : Nat) (hk : k < 20) : (BitVec.ofNat 32 k).toInt = (k : Int) := by
  have h : ∀ k : Fin 20, (BitVec.ofNat 32 k.val).toInt = (k.val : Int) := by decide
  exact h ⟨k, hk⟩

/-- The scatter-indices index read for update `j` is `(j, 0)`; the broadcast along the new unit axis reads it back at `j`. -/
theorem idx_v14_siIdx (j : S16777216.Idx) : idx_main_v14 (dS.siIdx j ⟨0, by decide⟩) = j := by
  funext a
  match a with
  | ⟨0, _⟩ => rfl

/-- The clipped bin word of the reference at flat position `j` is the bin word of the confidence there. -/
theorem v6_eq (x0 : (⟨S16x1024x1024, .f32⟩ : BufTy).Contents (Elt Ideal)) (j : S16777216.Idx) :
    val_main_v6 (F := Ideal) x0 j = binWord (x0 (idx_main_v0 j)) := by
  rw [val_main_v6_apply, val_main_call0_v4_apply, val_main_call0_v3_apply, val_main_c_0_apply,
    val_main_call0_v2_apply, val_main_call0_v1_apply, val_main_call0_v0_apply, val_main_c_apply,
    val_main_v5_apply, val_main_v4_apply, val_main_v3_apply, val_main_v0_apply, val_main_v2_apply,
    val_main_cst_apply]
  rfl

/-- The reference's weight at flat position `j` is the weight of the confidence there. -/
theorem v12_eq (x0 : (⟨S16x1024x1024, .f32⟩ : BufTy).Contents (Elt Ideal)) (j : S16777216.Idx) :
    val_main_v12 (F := Ideal) x0 j = weight (x0 (idx_main_v0 j)) := by
  rw [val_main_v12_apply, val_main_v11_apply, val_main_v8_apply, val_main_v10_apply, val_main_v0_apply,
    val_main_v7_apply, val_main_v9_apply, val_main_cst_1_apply, val_main_cst_2_apply]
  rfl

/-- The reshape's index map is a bijection between the flat positions and the 16 × 1024 × 1024 positions:
    `j ↦ (j / 1048576, j / 1024 % 1024, j % 1024)`, with inverse `(a, b, c) ↦ a·1048576 + b·1024 + c`. -/
def flatEquiv : S16777216.Idx ≃ S16x1024x1024.Idx where
  toFun := idx_main_v0
  invFun := fun i => fun a => match a with
    | ⟨0, _⟩ => ⟨(i 0).val * 1048576 + (i 1).val * 1024 + (i 2).val, by
        have h0 : (i 0).val < 16 := (i 0).isLt
        have h1 : (i 1).val < 1024 := (i 1).isLt
        have h2 : (i 2).val < 1024 := (i 2).isLt
        show (i 0).val * 1048576 + (i 1).val * 1024 + (i 2).val < 16777216
        omega⟩
  left_inv := by
    intro j
    funext a
    match a with
    | ⟨0, _⟩ =>
      apply Fin.ext
      have h0 : (j 0).val < 16777216 := (j 0).isLt
      show (j 0).val / 1048576 * 1048576 + (j 0).val / 1024 % 1024 * 1024 + (j 0).val % 1024 = (j 0).val
      omega
  right_inv := by
    intro i
    have h0 : (i 0).val < 16 := (i 0).isLt
    have h1 : (i 1).val < 1024 := (i 1).isLt
    have h2 : (i 2).val < 1024 := (i 2).isLt
    funext a
    match a with
    | ⟨0, _⟩ =>
      apply Fin.ext
      show ((i 0).val * 1048576 + (i 1).val * 1024 + (i 2).val) / 1048576 = (i 0).val
      omega
    | ⟨1, _⟩ =>
      apply Fin.ext
      show ((i 0).val * 1048576 + (i 1).val * 1024 + (i 2).val) / 1024 % 1024 = (i 1).val
      omega
    | ⟨2, _⟩ =>
      apply Fin.ext
      show ((i 0).val * 1048576 + (i 1).val * 1024 + (i 2).val) % 1024 = (i 2).val
      omega

/-- A sum over the flat positions of a function of the reshaped position is the sum over the 16 × 1024 × 1024 positions. -/
theorem sum_flat (G : SArr.Idx → EReal) : ∑ j : S16777216.Idx, G (idx_main_v0 j) = ∑ i : SArr.Idx, G i :=
  flatEquiv.sum_comp G

/-- The accumulating scatter of this program into a zero array of twenty bins, read at bin `i`: the sum over the flat
    positions of the updates whose confidence has bin word `i`. -/
theorem scatter_sum (x0 : (⟨S16x1024x1024, .f32⟩ : BufTy).Contents (Elt Ideal)) (z : S20.Idx → EReal) (hz : ∀ i, z i = 0)
    (upd : S16777216.Idx → EReal) (i : S20.Idx) :
    Ideal.hostScatterAdd dS z (val_main_v14 (F := Ideal) x0) upd i
      = ∑ j : S16777216.Idx, if binWord (x0 (idx_main_v0 j)) = BitVec.ofNat 32 (i 0).val then upd j else 0 := by
  unfold Ideal.hostScatterAdd
  rw [hz, zero_add, Finset.sum_filter]
  apply Finset.sum_congr rfl
  intro j _
  apply if_congr _ rfl rfl
  rw [resultIdx?_eq_some_iff]
  have hk := toInt_ofNat_small (i 0).val (i 0).isLt
  constructor
  · intro H
    have h0 := H 0
    rw [dS_start, dS_window, val_main_v14_apply, idx_v14_siIdx, v6_eq] at h0
    apply BitVec.eq_of_toInt_eq
    rw [hk, ← h0]
    simp
  · intro H a
    have ha : a = 0 := Subsingleton.elim _ _
    subst ha
    rw [dS_start, dS_window, val_main_v14_apply, idx_v14_siIdx, v6_eq, H, hk]
    simp

/-- The arrays the three scatters accumulate into are zero. -/
theorem zero13 (i : S20.Idx) : val_main_v13 (F := Ideal) i = 0 := by
  rw [val_main_v13_apply, val_main_cst_3_apply]; exact Ideal.ofBits_zero_f32
theorem zero17 (i : S20.Idx) : val_main_v17 (F := Ideal) i = 0 := by
  rw [val_main_v17_apply, val_main_cst_4_apply]; exact Ideal.ofBits_zero_f32
theorem zero21 (i : S20.Idx) : val_main_v21 (F := Ideal) i = 0 := by
  rw [val_main_v21_apply, val_main_cst_5_apply]; exact Ideal.ofBits_zero_f32

/-- The three scatters read the same index array: the bin words broadcast along a new unit axis. -/
theorem v18_eq_v14 (x0 : (⟨S16x1024x1024, .f32⟩ : BufTy).Contents (Elt Ideal)) :
    val_main_v18 (F := Ideal) x0 = val_main_v14 (F := Ideal) x0 := rfl
theorem v22_eq_v14 (x0 : (⟨S16x1024x1024, .f32⟩ : BufTy).Contents (Elt Ideal)) :
    val_main_v22 (F := Ideal) x0 = val_main_v14 (F := Ideal) x0 := rfl

/-- Row 0: the scattered weights are the per-bin sums of the weights. -/
theorem row0 (x0 x1 : (⟨S16x1024x1024, .f32⟩ : BufTy).Contents (Elt Ideal)) :
    val_main_v15 (F := Ideal) x0 = statRow x0 x1 0 := by
  rw [val_main_v15, Host.scatterAdd, Ideal.hostScatterAdd_def]
  funext i
  rw [scatter_sum x0 _ zero13, statRow]
  unfold stat
  refine Eq.trans ?_ (sum_flat _)
  refine Finset.sum_congr rfl fun j _ => ?_
  rw [v12_eq]
  rfl

/-- Row 1: the scattered confidence × weight products are the per-bin sums of weight × confidence. -/
theorem row1 (x0 x1 : (⟨S16x1024x1024, .f32⟩ : BufTy).Contents (Elt Ideal)) :
    val_main_v19 (F := Ideal) x0 = statRow x0 x1 1 := by
  rw [val_main_v19, Host.scatterAdd, Ideal.hostScatterAdd_def, v18_eq_v14]
  funext i
  rw [scatter_sum x0 _ zero17, statRow]
  unfold stat
  refine Eq.trans ?_ (sum_flat _)
  refine Finset.sum_congr rfl fun j _ => ?_
  rw [val_main_v16_apply, val_main_v0_apply, v12_eq, Ideal.mulf_def, mul_comm]
  rfl

/-- Row 2: the scattered accuracy × weight products are the per-bin sums of weight × accuracy. -/
theorem row2 (x0 x1 : (⟨S16x1024x1024, .f32⟩ : BufTy).Contents (Elt Ideal)) :
    val_main_v23 (F := Ideal) x0 x1 = statRow x0 x1 2 := by
  rw [val_main_v23, Host.scatterAdd, Ideal.hostScatterAdd_def, v22_eq_v14]
  funext i
  rw [scatter_sum x0 _ zero21, statRow]
  unfold stat
  refine Eq.trans ?_ (sum_flat _)
  refine Finset.sum_congr rfl fun j _ => ?_
  rw [val_main_v20_apply, val_main_v1_apply, v12_eq, Ideal.mulf_def, mul_comm]
  rfl

theorem ref_result (m : (ℓ : Loc nD τ sig) → Buf (Elt Ideal) ℓ) (c : Dev nD) :
    Cert.ReferenceIdeal.ValueP.res_main_v36 (F := Ideal) m c
      = tail (F := Ideal) bcast_S_S20 reducesTo_S20_S_d0 h_S_
          (statRow (m ((c.tc : Thread nD τ).loc main_arg0)) (m ((c.tc : Thread nD τ).loc main_arg1)) 0)
          (statRow (m ((c.tc : Thread nD τ).loc main_arg0)) (m ((c.tc : Thread nD τ).loc main_arg1)) 1)
          (statRow (m ((c.tc : Thread nD τ).loc main_arg0)) (m ((c.tc : Thread nD τ).loc main_arg1)) 2) := by
  rw [val_main_v36_eq, tail_of_stages,
    row0 (m ((c.tc : Thread nD τ).loc main_arg0)) (m ((c.tc : Thread nD τ).loc main_arg1)),
    row1 (m ((c.tc : Thread nD τ).loc main_arg0)) (m ((c.tc : Thread nD τ).loc main_arg1)),
    row2 (m ((c.tc : Thread nD τ).loc main_arg0)) (m ((c.tc : Thread nD τ).loc main_arg1))]

end Cert.ReferenceIdeal.Hist

end
-- ==== Proof.lean ====
/-
  A binned calibration error over 16 × 1024 × 1024 confidences and accuracies: the kernel and its reference agree
  over the extended reals.

  THE STATISTIC. An entry with confidence p belongs to bin clamp(⌊20·p⌋, 0, 19) and has weight 1 if 0 ≤ p < 1 and 0
  otherwise. For each of the twenty bins: the sum of the weights (row 0), of weight × confidence (row 1), of
  weight × accuracy (row 2) of the bin's entries. The result is the mean, over the bins with a positive row 0, of
  |row 1 / row 0 − row 2 / row 0| (Proof/Spec.lean: `stat`, `tail`).

  THE REFERENCE forms each row by one accumulating scatter of all 16777216 flattened entries into twenty bins: at the
  exact instance that is, per bin, the sum of the updates whose index is the bin; flattening is a bijection of the
  positions (Proof/RefValue.lean).

  THE KERNEL walks 2 × 8 × 2 grid points; point t holds rows (t mod 2)·512 … of plane t / 2. At each point a loop over
  the twenty bins masks the block by "bin = b", sums the mask, mask × confidence and mask × accuracy over the block
  (a product with a column of ones, then two lane sums: Proof/KBlockSum.lean) and adds each sum into lane b of a
  row; the three rows are stacked (Proof/KDelta.lean, Proof/KPayload.lean) and added to the group's running 3 × 128
  block, zeroed at the group's first point (Proof/KPieces.lean, Proof/KAccum.lean) and written back after its last
  (Proof/KFinal.lean). The host adds the two groups' blocks, keeps the first twenty lanes of each row and applies
  the same tail (Proof/KTail.lean). Since every position is exactly one (point, row, column), the host's rows are the
  statistic's rows (Proof/KValue.lean), and the run ends at the statistic's tail (Proof/KRun.lean).

  WHY THEY AGREE. Both sides use the same bin word and the same weight for an entry, so an entry outside [0, 1) adds
  0 on both sides whatever its bin; the two sides then differ only in how one finite sum of extended reals is
  grouped, and in the order of the factors of a product: addition and multiplication of extended reals commute and
  associate, and 0 · x = 0 for every x, so nothing about the inputs' finiteness is used. A change of float format is
  the identity at the exact instance. The idealization rewrote no operation, so `preserves` is trivial; the three
  frames are the programs' runs with the results dropped.
-/
import proofs.«148604_j84404697301125_2_alg».proof.Defs
import proofs.«148604_j84404697301125_2_alg».proof.Proof.Gen.Kernel
import proofs.«148604_j84404697301125_2_alg».proof.Proof.Gen.Kernel.Frame
import proofs.«148604_j84404697301125_2_alg».proof.Proof.Gen.KernelIdeal
import proofs.«148604_j84404697301125_2_alg».proof.Proof.Gen.KernelIdeal.Frame
import proofs.«148604_j84404697301125_2_alg».proof.Proof.Gen.ReferenceIdeal
import proofs.«148604_j84404697301125_2_alg».proof.Proof.Gen.Pre_finite_inputs
import proofs.«148604_j84404697301125_2_alg».proof.Proof.KRun
import proofs.«148604_j84404697301125_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end at the tail of the statistic's three rows of arguments that agree. -/
theorem algebraic : Cert.algebraic_KernelIdeal_ReferenceIdeal := by
  intro m ρ m' ρ' _ hagree
  refine ⟨fun c => Cert.KernelIdeal.Hist.result m c, Cert.KernelIdeal.Hist.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Hist.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
